-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x18432 : Shape := ⟨2, ![2048, 18432]⟩
abbrev S_ : Shape := ⟨0, ![]⟩

class Facts : Prop where
  bcast_S_S2048x18432 : S_.BroadcastsInDim S2048x18432 (![] : Fin 0 → Fin S2048x18432.rank)
  reducesTo_S2048x18432_S_d0_1 : S2048x18432.ReducesTo [0, 1] S_
  h_S_ : 0 < S_.numel

variable [Facts]

def fn {F : FTy → Type} [FloatOps F] (main_arg0 : FVec F S2048x18432 .f32) : IVec S_ 1 :=
  let main_v0 : FVec F S2048x18432 .f32 := Host.absf main_arg0
  let main_cst : FVec F S_ .f32 := constant S_ .f32 0x7F800000#32
  let main_v1 : FVec F S2048x18432 .f32 := broadcastInDim S2048x18432 ![] bcast_S_S2048x18432 main_cst
  let main_v2 : IVec S2048x18432 1 := cmpf .olt main_v0 main_v1
  let main_c : IVec S_ 1 := constantI S_ 1 1#1
  let main_v3 : IVec S_ 1 := (fun x v => Host.reduce IntOp.andi x v reducesTo_S2048x18432_S_d0_1 h_S_) main_v2 main_c
  main_v3
-- ==== Kernel.lean ====
abbrev S2048x18432 : Shape := ⟨2, ![2048, 18432]⟩
abbrev S64x18432 : Shape := ⟨2, ![64, 18432]⟩
abbrev S32x18432 : Shape := ⟨2, ![32, 18432]⟩
abbrev S32 : Shape := ⟨1, ![32]⟩
abbrev S32x1 : Shape := ⟨2, ![32, 1]⟩
abbrev S32x32 : Shape := ⟨2, ![32, 32]⟩
abbrev S1 : Shape := ⟨1, ![1]⟩
abbrev S1x1 : Shape := ⟨2, ![1, 1]⟩

abbrev nBuf : Space → Nat
  | .hbm => 2
  | .vmem => 4
  | .smem => 0
  | _ => 0

abbrev bufTy : (tb : Table) → Fin (tcTables nBuf tb) → BufTy
  | .hbm, ⟨0, _⟩ => ⟨S2048x18432, .f32⟩
  | .hbm, ⟨1, _⟩ => ⟨S2048x18432, .f32⟩
  | .local _ .vmem, ⟨0, _⟩ => ⟨S64x18432, .f32⟩
  | .local _ .vmem, ⟨1, _⟩ => ⟨S64x18432, .f32⟩
  | .local _ .vmem, ⟨2, _⟩ => ⟨S64x18432, .f32⟩
  | .local _ .vmem, ⟨3, _⟩ => ⟨S64x18432, .f32⟩
  | _, _ => ⟨S2048x18432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x18432 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x18432 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S64x18432_S32x18432_0_0 : ∀ a, (![0, 0] : Fin 2 → Nat) a + S32x18432.size a ≤ S64x18432.size a
  h_S32x18432 : 0 < S32x18432.numel
  reduces_S32x18432_S32 : S32x18432.Reduces [1] S32
  shapeCasts_S32_S32x1 : S32.ShapeCasts S32x1
  broadcasts_S32x1_S32x18432 : S32x1.Broadcasts S32x18432
  bitsLt_bf16_f32 : FTy.bits .bf16 < FTy.bits .f32
  iota_S32x32_d0_w32 : S32x32.Iotas .tc 32 [0]
  iota_S32x32_d1_w32 : S32x32.Iotas .tc 32 [1]
  natLt_1_32 : 1 < 32
  reduces_S32x32_S32 : S32x32.Reduces [1] S32
  reduces_S32x1_S1 : S32x1.Reduces [0] S1
  shapeCasts_S1_S1x1 : S1.ShapeCasts S1x1
  broadcasts_S1x1_S32x32 : S1x1.Broadcasts S32x32
  broadcasts_S1x1_S32x18432 : S1x1.Broadcasts S32x18432
  inb_S64x18432_S32x18432_32_0 : ∀ a, (![32, 0] : Fin 2 → Nat) a + S32x18432.size a ≤ S64x18432.size a
  dot_S32x18432_S32x18432_S32x32_1_1_0_0_n_n_wf : DotDims.WF S32x18432 S32x18432 S32x32 [1] [1] [0] [0] [] []
  dot_S32x32_S32x32_S32x32_1_0_0_1_n_n_wf : DotDims.WF S32x32 S32x32 S32x32 [1] [0] [0] [1] [] []
  dot_S32x32_S32x18432_S32x18432_1_0_0_1_n_n_wf : DotDims.WF S32x32 S32x18432 S32x18432 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x18432.size a ≤ S2048x18432.size a
  hwx0_0 : ∀ i : grid0.Coords, EltTy.bits .f32 = 32 ∨ (Rect.block (s := S2048x18432) S64x18432.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x18432.size a ≤ S2048x18432.size a
  hwx0_1 : ∀ i : grid0.Coords, EltTy.bits .f32 = 32 ∨ (Rect.block (s := S2048x18432) S64x18432.size (cc0_transform_1 i) (hinb0_1 i)).WholeWords (EltTy.packing .f32)

variable [Facts₀]

def dot_S32x18432_S32x18432_S32x32_1_1_0_0_n_n : DotDims S32x18432 S32x18432 S32x32 where
  lhsContracting := [1]
  rhsContracting := [1]
  lhsNonContracting := [0]
  rhsNonContracting := [0]
  lhsBatch := []
  rhsBatch := []
  wf := dot_S32x18432_S32x18432_S32x32_1_1_0_0_n_n_wf
def dot_S32x32_S32x32_S32x32_1_0_0_1_n_n : DotDims S32x32 S32x32 S32x32 where
  lhsContracting := [1]
  rhsContracting := [0]
  lhsNonContracting := [0]
  rhsNonContracting := [1]
  lhsBatch := []
  rhsBatch := []
  wf := dot_S32x32_S32x32_S32x32_1_0_0_1_n_n_wf
def dot_S32x32_S32x18432_S32x18432_1_0_0_1_n_n : DotDims S32x32 S32x18432 S32x18432 where
  lhsContracting := [1]
  rhsContracting := [0]
  lhsNonContracting := [0]
  rhsNonContracting := [1]
  lhsBatch := []
  rhsBatch := []
  wf := dot_S32x32_S32x18432_S32x18432_1_0_0_1_n_n_wf

abbrev win0_0 : Pipeline.Window sig grid0 :=
  Pipeline.Window.ofSpec (Memref.whole main_arg0) S64x18432.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x18432.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x18432 : Shape := ⟨2, ![2048, 18432]⟩
abbrev S64x32x18432 : Shape := ⟨3, ![64, 32, 18432]⟩
abbrev S_ : Shape := ⟨0, ![]⟩
abbrev S64x32 : Shape := ⟨2, ![64, 32]⟩
abbrev S64x32x1 : Shape := ⟨3, ![64, 32, 1]⟩
abbrev S64x32x32 : Shape := ⟨3, ![64, 32, 32]⟩
abbrev S32x32 : Shape := ⟨2, ![32, 32]⟩
abbrev S1x32x32 : Shape := ⟨3, ![1, 32, 32]⟩
abbrev S64 : Shape := ⟨1, ![64]⟩
abbrev S64x1x1 : Shape := ⟨3, ![64, 1, 1]⟩

abbrev nBuf : Space → Nat
  | .hbm => 87
  | .vmem => 0
  | .smem => 0
  | _ => 0

abbrev bufTy : (tb : Table) → Fin (tcTables nBuf tb) → BufTy
  | .hbm, ⟨0, _⟩ => ⟨S2048x18432, .f32⟩
  | .hbm, ⟨1, _⟩ => ⟨S64x32x18432, .f32⟩
  | .hbm, ⟨2, _⟩ => ⟨S_, .f32⟩
  | .hbm, ⟨3, _⟩ => ⟨S64x32, .f32⟩
  | .hbm, ⟨4, _⟩ => ⟨S64x32x1, .f32⟩
  | .hbm, ⟨5, _⟩ => ⟨S_, .f32⟩
  | .hbm, ⟨6, _⟩ => ⟨S64x32x1, .f32⟩
  | .hbm, ⟨7, _⟩ => ⟨S64x32x1, .f32⟩
  | .hbm, ⟨8, _⟩ => ⟨S64x32x18432, .f32⟩
  | .hbm, ⟨9, _⟩ => ⟨S64x32x18432, .f32⟩
  | .hbm, ⟨10, _⟩ => ⟨S64x32x32, .f32⟩
  | .hbm, ⟨11, _⟩ => ⟨S32x32, .i32⟩
  | .hbm, ⟨12, _⟩ => ⟨S32x32, .i32⟩
  | .hbm, ⟨13, _⟩ => ⟨S_, .i32⟩
  | .hbm, ⟨14, _⟩ => ⟨S32x32, .i32⟩
  | .hbm, ⟨15, _⟩ => ⟨S32x32, .i32⟩
  | .hbm, ⟨16, _⟩ => ⟨S32x32, .i1⟩
  | .hbm, ⟨17, _⟩ => ⟨S32x32, .f32⟩
  | .hbm, ⟨18, _⟩ => ⟨S_, .f32⟩
  | .hbm, ⟨19, _⟩ => ⟨S32x32, .f32⟩
  | .hbm, ⟨20, _⟩ => ⟨S32x32, .f32⟩
  | .hbm, ⟨21, _⟩ => ⟨S1x32x32, .f32⟩
  | .hbm, ⟨22, _⟩ => ⟨S64x32x32, .f32⟩
  | .hbm, ⟨23, _⟩ => ⟨S64x32x32, .f32⟩
  | .hbm, ⟨24, _⟩ => ⟨S64x32x32, .f32⟩
  | .hbm, ⟨25, _⟩ => ⟨S_, .f32⟩
  | .hbm, ⟨26, _⟩ => ⟨S64, .f32⟩
  | .hbm, ⟨27, _⟩ => ⟨S64x1x1, .f32⟩
  | .hbm, ⟨28, _⟩ => ⟨S64x1x1, .f32⟩
  | .hbm, ⟨29, _⟩ => ⟨S64x32x32, .f32⟩
  | .hbm, ⟨30, _⟩ => ⟨S64x32x32, .f32⟩
  | .hbm, ⟨31, _⟩ => ⟨S64x32x32, .f32⟩
  | .hbm, ⟨32, _⟩ => ⟨S64x32x32, .f32⟩
  | .hbm, ⟨33, _⟩ => ⟨S64x32x32, .f32⟩
  | .hbm, ⟨34, _⟩ => ⟨S_, .f32⟩
  | .hbm, ⟨35, _⟩ => ⟨S64x32x32, .f32⟩
  | .hbm, ⟨36, _⟩ => ⟨S64x32x32, .f32⟩
  | .hbm, ⟨37, _⟩ => ⟨S64x32x32, .f32⟩
  | .hbm, ⟨38, _⟩ => ⟨S_, .f32⟩
  | .hbm, ⟨39, _⟩ => ⟨S64x32x32, .f32⟩
  | .hbm, ⟨40, _⟩ => ⟨S64x32x32, .f32⟩
  | .hbm, ⟨41, _⟩ => ⟨S64x32x32, .f32⟩
  | .hbm, ⟨42, _⟩ => ⟨S64x32x32, .f32⟩
  | .hbm, ⟨43, _⟩ => ⟨S64x32x32, .f32⟩
  | .hbm, ⟨44, _⟩ => ⟨S_, .f32⟩
  | .hbm, ⟨45, _⟩ => ⟨S64x32x32, .f32⟩
  | .hbm, ⟨46, _⟩ => ⟨S64x32x32, .f32⟩
  | .hbm, ⟨47, _⟩ => ⟨S64x32x32, .f32⟩
  | .hbm, ⟨48, _⟩ => ⟨S_, .f32⟩
  | .hbm, ⟨49, _⟩ => ⟨S64x32x32, .f32⟩
  | .hbm, ⟨50, _⟩ => ⟨S64x32x32, .f32⟩
  | .hbm, ⟨51, _⟩ => ⟨S64x32x32, .f32⟩
  | .hbm, ⟨52, _⟩ => ⟨S64x32x32, .f32⟩
  | .hbm, ⟨53, _⟩ => ⟨S64x32x32, .f32⟩
  | .hbm, ⟨54, _⟩ => ⟨S_, .f32⟩
  | .hbm, ⟨55, _⟩ => ⟨S64x32x32, .f32⟩
  | .hbm, ⟨56, _⟩ => ⟨S64x32x32, .f32⟩
  | .hbm, ⟨57, _⟩ => ⟨S64x32x32, .f32⟩
  | .hbm, ⟨58, _⟩ => ⟨S_, .f32⟩
  | .hbm, ⟨59, _⟩ => ⟨S64x32x32, .f32⟩
  | .hbm, ⟨60, _⟩ => ⟨S64x32x32, .f32⟩
  | .hbm, ⟨61, _⟩ => ⟨S64x32x32, .f32⟩
  | .hbm, ⟨62, _⟩ => ⟨S64x32x32, .f32⟩
  | .hbm, ⟨63, _⟩ => ⟨S64x32x32, .f32⟩
  | .hbm, ⟨64, _⟩ => ⟨S_, .f32⟩
  | .hbm, ⟨65, _⟩ => ⟨S64x32x32, .f32⟩
  | .hbm, ⟨66, _⟩ => ⟨S64x32x32, .f32⟩
  | .hbm, ⟨67, _⟩ => ⟨S64x32x32, .f32⟩
  | .hbm, ⟨68, _⟩ => ⟨S_, .f32⟩
  | .hbm, ⟨69, _⟩ => ⟨S64x32x32, .f32⟩
  | .hbm, ⟨70, _⟩ => ⟨S64x32x32, .f32⟩
  | .hbm, ⟨71, _⟩ => ⟨S64x32x32, .f32⟩
  | .hbm, ⟨72, _⟩ => ⟨S64x32x32, .f32⟩
  | .hbm, ⟨73, _⟩ => ⟨S64x32x32, .f32⟩
  | .hbm, ⟨74, _⟩ => ⟨S_, .f32⟩
  | .hbm, ⟨75, _⟩ => ⟨S64x32x32, .f32⟩
  | .hbm, ⟨76, _⟩ => ⟨S64x32x32, .f32⟩
  | .hbm, ⟨77, _⟩ => ⟨S64x32x32, .f32⟩
  | .hbm, ⟨78, _⟩ => ⟨S_, .f32⟩
  | .hbm, ⟨79, _⟩ => ⟨S64x32x32, .f32⟩
  | .hbm, ⟨80, _⟩ => ⟨S64x32x32, .f32⟩
  | .hbm, ⟨81, _⟩ => ⟨S64x32x32, .f32⟩
  | .hbm, ⟨82, _⟩ => ⟨S64x32x18432, .f32⟩
  | .hbm, ⟨83, _⟩ => ⟨S64x1x1, .f32⟩
  | .hbm, ⟨84, _⟩ => ⟨S64x32x18432, .f32⟩
  | .hbm, ⟨85, _⟩ => ⟨S64x32x18432, .f32⟩
  | .hbm, ⟨86, _⟩ => ⟨S2048x18432, .f32⟩
  | _, _ => ⟨S2048x18432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_4 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_cst_5 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_6 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_cst_7 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_9 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_cst_10 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_11 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_12 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩

abbrev nD : Nat := 1
abbrev τ : Topo := Topo.v7x

variable {F : FTy → Type} [FloatOps F]

class Facts₀ : Prop where
  shapeCasts_S2048x18432_S64x32x18432 : S2048x18432.ShapeCasts S64x32x18432
  reducesTo_S64x32x18432_S64x32_d2 : S64x32x18432.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x18432_0_1_2 : S64x32x1.BroadcastsInDim S64x32x18432 (![0, 1, 2] : Fin 3 → Fin S64x32x18432.rank)
  bcast_S_S32x32 : S_.BroadcastsInDim S32x32 (![] : Fin 0 → Fin S32x32.rank)
  bcast_S32x32_S1x32x32_1_2 : S32x32.BroadcastsInDim S1x32x32 (![1, 2] : Fin 2 → Fin S1x32x32.rank)
  bcast_S1x32x32_S64x32x32_0_1_2 : S1x32x32.BroadcastsInDim S64x32x32 (![0, 1, 2] : Fin 3 → Fin S64x32x32.rank)
  reducesTo_S64x32x32_S64_d1_2 : S64x32x32.ReducesTo [1, 2] S64
  bcast_S64_S64x1x1_0 : S64.BroadcastsInDim S64x1x1 (![0] : Fin 1 → Fin S64x1x1.rank)
  bcast_S64x1x1_S64x32x32_0_1_2 : S64x1x1.BroadcastsInDim S64x32x32 (![0, 1, 2] : Fin 3 → Fin S64x32x32.rank)
  bcast_S32x32_S64x32x32_1_2 : S32x32.BroadcastsInDim S64x32x32 (![1, 2] : Fin 2 → Fin S64x32x32.rank)
  bcast_S_S64x32x32 : S_.BroadcastsInDim S64x32x32 (![] : Fin 0 → Fin S64x32x32.rank)
  bcast_S64x1x1_S64x32x18432_0_1_2 : S64x1x1.BroadcastsInDim S64x32x18432 (![0, 1, 2] : Fin 3 → Fin S64x32x18432.rank)
  shapeCasts_S64x32x18432_S2048x18432 : S64x32x18432.ShapeCasts S2048x18432
  dot_S64x32x18432_S64x32x18432_S64x32x32_2_2_1_1_0_0_wf : DotDims.WF S64x32x18432 S64x32x18432 S64x32x32 [2] [2] [1] [1] [0] [0]
  dot_S64x32x32_S64x32x32_S64x32x32_2_1_1_2_0_0_wf : DotDims.WF S64x32x32 S64x32x32 S64x32x32 [2] [1] [1] [2] [0] [0]
  dot_S64x32x32_S64x32x18432_S64x32x18432_2_1_1_2_0_0_wf : DotDims.WF S64x32x32 S64x32x18432 S64x32x18432 [2] [1] [1] [2] [0] [0]

variable [Facts₀]

def dot_S64x32x18432_S64x32x18432_S64x32x32_2_2_1_1_0_0 : DotDims S64x32x18432 S64x32x18432 S64x32x32 where
  lhsContracting := [2]
  rhsContracting := [2]
  lhsNonContracting := [1]
  rhsNonContracting := [1]
  lhsBatch := [0]
  rhsBatch := [0]
  wf := dot_S64x32x18432_S64x32x18432_S64x32x32_2_2_1_1_0_0_wf
def dot_S64x32x32_S64x32x32_S64x32x32_2_1_1_2_0_0 : DotDims S64x32x32 S64x32x32 S64x32x32 where
  lhsContracting := [2]
  rhsContracting := [1]
  lhsNonContracting := [1]
  rhsNonContracting := [2]
  lhsBatch := [0]
  rhsBatch := [0]
  wf := dot_S64x32x32_S64x32x32_S64x32x32_2_1_1_2_0_0_wf
def dot_S64x32x32_S64x32x18432_S64x32x18432_2_1_1_2_0_0 : DotDims S64x32x32 S64x32x18432 S64x32x18432 where
  lhsContracting := [2]
  rhsContracting := [1]
  lhsNonContracting := [1]
  rhsNonContracting := [2]
  lhsBatch := [0]
  rhsBatch := [0]
  wf := dot_S64x32x32_S64x32x18432_S64x32x18432_2_1_1_2_0_0_wf

class Facts : Prop extends Facts₀ where

variable [Facts]
-- ==== Proof.Spec.lean ====
/-
  The mathematics both programs compute, and the one law that joins them.

  The weight matrix is cut into 64 groups of 32 consecutive rows. Each group W (32 rows, 18432 columns) is treated
  alone:
    Z  = W with each row's mean (row sum / 18432) subtracted,
    S  = Z Zᵀ + ε·I           (32 × 32),
    n  = sqrt (Σᵢ Σⱼ Sᵢⱼ²)    (the Frobenius norm of S),
    Sₙ = S / n,
    B₀ = I,  Bₜ₊₁ = 1.5·Bₜ − 0.5·(Bₜ Bₜ Bₜ Sₙ)   for five steps,
  and the group's result is B₅ Z scaled by n^(-1/2). One program multiplies by the reciprocal 1 / sqrt n, the
  other divides by sqrt n. On the extended reals these agree exactly when sqrt n is not zero; and n is never zero,
  because S's first diagonal entry is a sum of squares plus ε with ε > 0, so Σ Sᵢⱼ² ≥ S₀₀² > 0.
  Sums are finite sums in a commutative monoid, so their grouping and order play no part.
-/
import Idealize.ShloMosaic.PureOps.Ideal
import Idealize.ShloMosaic.PureOps.Ideal.Laws
import Idealize.ShloMosaic.Lib.ValueIdx

open scoped BigOperators

noncomputable section

namespace Cert.Ortho

open Idealize.ShloMosaic Idealize.ShloMosaic.ValueIdx

/-- A matrix of extended reals by its two coordinates. -/
abbrev Mat (a b : Nat) := Fin a → Fin b → EReal

/-- The matrix product, as the sum over the contracted coordinate. -/
def mm {a k b : Nat} (X : Mat a k) (Y : Mat k b) : Mat a b := fun i j => ∑ l : Fin k, X i l * Y l j

/-- X Xᵀ: entry (i, j) is the sum over the columns of the products of rows i and j. -/
def gram {a k : Nat} (X : Mat a k) : Mat a a := fun i j => ∑ l : Fin k, X i l * X j l

/-- The identity matrix. -/
def eye : Mat 32 32 := fun i j => if i = j then 1 else 0

/-- The literals the two programs share, as the extended reals their patterns denote. -/
def cD : EReal := Ideal.ofBits .f32 0x46900000#32
def cEps : EReal := Ideal.ofBits .f32 0x3727C5AC#32
def c15 : EReal := Ideal.ofBits .f32 0x3FC00000#32
def c05 : EReal := Ideal.ofBits .f32 0x3F000000#32

/-- Each row less its mean. -/
def center (W : Mat 32 18432) : Mat 32 18432 := fun i k => W i k - Ideal.div (∑ l : Fin 18432, W i l) cD

/-- The regularised Gram matrix Z Zᵀ + ε·I. -/
def reg (Z : Mat 32 18432) : Mat 32 32 := fun i j => gram Z i j + cEps * eye i j

/-- The sum of the squares of a matrix's entries, rows first. -/
def sumSq (S : Mat 32 32) : EReal := ∑ i : Fin 32, ∑ j : Fin 32, S i j * S i j

/-- The Frobenius norm. -/
def frob (S : Mat 32 32) : EReal := Ideal.sqrt (sumSq S)

/-- Every entry divided by one number. -/
def scaleBy (S : Mat 32 32) (n : EReal) : Mat 32 32 := fun i j => Ideal.div (S i j) n

/-- One Newton–Schulz step. -/
def step (Sn B : Mat 32 32) : Mat 32 32 := fun i j => c15 * B i j - c05 * mm (mm (mm B B) B) Sn i j

/-- Five steps from the identity. -/
def iter5 (Sn : Mat 32 32) : Mat 32 32 := step Sn (step Sn (step Sn (step Sn (step Sn eye))))

/-- The unscaled result of a group: B₅ Z. -/
def core (W : Mat 32 18432) : Mat 32 18432 :=
  mm (iter5 (scaleBy (reg (center W)) (frob (reg (center W))))) (center W)

/-- The group's scale is taken from sqrt of the norm. -/
def rootNorm (W : Mat 32 18432) : EReal := Ideal.sqrt (frob (reg (center W)))

/-- The group's result, multiplying by the reciprocal. -/
def outMul (W : Mat 32 18432) : Mat 32 18432 := fun i k => core W i k * Ideal.div 1 (rootNorm W)

/-- The group's result, dividing. -/
def outDiv (W : Mat 32 18432) : Mat 32 18432 := fun i k => Ideal.div (core W i k) (rootNorm W)

/-! ## The norm is positive -/

theorem mul_self_nonneg (x : EReal) : 0 ≤ x * x := by
  induction x using EReal.rec with
  | bot => simp
  | top => simp
  | coe r => rw [← EReal.coe_mul]; exact_mod_cast _root_.mul_self_nonneg r

theorem mul_self_pos {x : EReal} (h : 0 < x) : 0 < x * x := by
  induction x using EReal.rec with
  | bot => exact absurd h (not_lt.mpr bot_le)
  | top => simp
  | coe r =>
    have hr : 0 < r := by exact_mod_cast h
    rw [← EReal.coe_mul]; exact_mod_cast _root_.mul_pos hr hr

theorem sqrt_pos {x : EReal} (h : 0 < x) : 0 < Ideal.sqrt x := by
  induction x using EReal.rec with
  | bot => exact absurd h (not_lt.mpr bot_le)
  | top => simp
  | coe r =>
    have hr : 0 < r := by exact_mod_cast h
    rw [Ideal.sqrt_coe, if_neg (not_lt.mpr hr.le)]
    exact_mod_cast Real.sqrt_pos.mpr hr

/-- ε, the pattern 0x3727C5AC, denotes a positive real. -/
theorem cEps_pos : 0 < cEps := by
  unfold cEps
  simp [Ideal.ofBits, Ideal.ieee, -EReal.coe_mul]

theorem eye_self (i : Fin 32) : eye i i = 1 := if_pos rfl

theorem gram_self_nonneg {a k : Nat} (X : Mat a k) (i : Fin a) : 0 ≤ gram X i i :=
  Finset.sum_nonneg fun l _ => mul_self_nonneg (X i l)

theorem reg_diag_pos (Z : Mat 32 18432) (i : Fin 32) : 0 < reg Z i i := by
  unfold reg
  rw [eye_self, mul_one]
  calc (0 : EReal) < cEps := cEps_pos
    _ = 0 + cEps := (zero_add _).symm
    _ ≤ gram Z i i + cEps := add_le_add (gram_self_nonneg Z i) le_rfl

theorem sumSq_pos {S : Mat 32 32} (h : 0 < S 0 0) : 0 < sumSq S := by
  unfold sumSq
  have h1 : S 0 0 * S 0 0 ≤ ∑ j : Fin 32, S 0 j * S 0 j :=
    Finset.single_le_sum (f := fun j => S 0 j * S 0 j) (fun j _ => mul_self_nonneg (S 0 j)) (Finset.mem_univ 0)
  have h2 : (∑ j : Fin 32, S 0 j * S 0 j) ≤ ∑ i : Fin 32, ∑ j : Fin 32, S i j * S i j :=
    Finset.single_le_sum (f := fun i => ∑ j : Fin 32, S i j * S i j)
      (fun i _ => Finset.sum_nonneg fun j _ => mul_self_nonneg (S i j)) (Finset.mem_univ 0)
  exact lt_of_lt_of_le (mul_self_pos h) (h1.trans h2)

theorem rootNorm_pos (W : Mat 32 18432) : 0 < rootNorm W :=
  sqrt_pos (sqrt_pos (sumSq_pos (reg_diag_pos (center W) 0)))

/-! ## Multiplying by the reciprocal is dividing, off zero -/

theorem mul_div_one {y : EReal} (hy : y ≠ 0) (x : EReal) : x * Ideal.div 1 y = Ideal.div x y := by
  unfold Ideal.div
  rw [if_neg hy, if_neg hy, one_mul]

theorem outMul_eq_outDiv (W : Mat 32 18432) : outMul W = outDiv W := by
  funext i k
  exact mul_div_one (rootNorm_pos W).ne' _

/-! ## The whole array: group g is rows 32g … 32g + 31 -/

/-- Rows 32g … 32g + 31 of a [2048, 18432] array, as a matrix. -/
def grp (A : (⟨2, ![2048, 18432]⟩ : Shape).Idx → EReal) (g : Fin 64) : Mat 32 18432 :=
  fun a k => A (ix2 (⟨32 * g.val + a.val, by omega⟩ : Fin 2048) k)

/-- The result array by row and column, for either final form f of the group function. -/
def arrOf (f : Mat 32 18432 → Mat 32 18432) (A : (⟨2, ![2048, 18432]⟩ : Shape).Idx → EReal) (r : Fin 2048) (q : Fin 18432) : EReal :=
  f (grp A (⟨r.val / 32, by omega⟩ : Fin 64)) (⟨r.val % 32, Nat.mod_lt _ (by norm_num)⟩ : Fin 32) q

/-- The result array as a function of the argument array, index by index. -/
def resultOf (f : Mat 32 18432 → Mat 32 18432) (A : (⟨2, ![2048, 18432]⟩ : Shape).Idx → EReal) :
    (⟨2, ![2048, 18432]⟩ : Shape).Idx → EReal :=
  fun i => arrOf f A (⟨(i 0).val, idx2_lt0 i⟩ : Fin 2048) (⟨(i 1).val, idx2_lt1 i⟩ : Fin 18432)

theorem resultOf_ix2 (f : Mat 32 18432 → Mat 32 18432) (A : (⟨2, ![2048, 18432]⟩ : Shape).Idx → EReal) (r : Fin 2048) (q : Fin 18432) :
    resultOf f A (ix2 r q) = arrOf f A r q := rfl

theorem resultOf_outMul_eq (A : (⟨2, ![2048, 18432]⟩ : Shape).Idx → EReal) : resultOf outMul A = resultOf outDiv A := by
  have h : (outMul : Mat 32 18432 → Mat 32 18432) = outDiv := funext outMul_eq_outDiv
  rw [h]

end Cert.Ortho

end
-- ==== Proof.LibKeepdims.lean ====
/-
  General lemmas: the "keepdims" column forms read at an index given by coordinates.

  A reduction over the last axis of an `[a, b]` array leaves one value per row, an `[a]` vector; to combine it with the
  array again it is viewed as a column `[a, 1]` and the column is broadcast along the rows to `[a, b]`.  Read at
  `(i, j)`, the column view is the vector at `i` and the broadcast column is the column at `(i, 0)`: so the two together
  read the vector at the ROW coordinate, whatever the column coordinate.
-/
import Idealize.ShloMosaic.Lib.Pipeline.Value
import Idealize.ShloMosaic.Lib.ValueIdx

namespace Cert.LibKeepdims

open Idealize.ShloMosaic Idealize.ShloMosaic.ValueIdx

variable {α : Type}

/-- An `[a]` vector viewed as a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Together: a per-row vector, viewed as a column and broadcast along the rows, reads at `(i, j)` the vector at `i`. -/
theorem keepdims_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (i : Fin a) (j : Fin b) :
    broadcastTo ⟨2, ![a, b]⟩ (shapeCast ⟨2, ![a, 1]⟩ x h1) h2 (ix2 i j) = x (ix1 i) :=
  (broadcastTo_a1_ab_apply _ h2 i j).trans (shapeCast_a_a1_apply x h1 i 0)

/-- The row form beside it: a vector `[b]` viewed as one row `[1, b]` and broadcast over `a` rows reads at `(i, j)` the
    vector at the COLUMN coordinate `j` (a bias added to every row). -/
theorem rowdims_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (i : Fin a) (j : Fin b) :
    broadcastTo ⟨2, ![a, b]⟩ (shapeCast ⟨2, ![1, b]⟩ x h1) h2 (ix2 i j) = x (ix1 j) := by
  refine (broadcastTo_apply _ h2 (ix2 i j) (ix2 (0 : Fin 1) j) fun ax => ?_).trans ?_
  · match ax with
    | ⟨0, _⟩ => rfl
    | ⟨1, _⟩ =>
      show j.val = if b = 1 then 0 else j.val
      split
      · have := j.isLt; omega
      · rfl
  · exact shapeCast_apply x h1 _ _ (by
      rw [Shape.rowMajor_val_two, Shape.rowMajor_val_one]
      show j.val = 0 * b + j.val
      rw [Nat.zero_mul, Nat.zero_add])

end Cert.LibKeepdims
-- ==== Proof.KOps.lean ====
/-
  The kernel's vector operations read at an index, at the ideal values, over the shapes this kernel uses.

  A [32, 32] or [32, 18432] vector is read as a matrix by its two coordinates. A matrix-unit product into the zero
  accumulator is the matrix product (the sum over the one contracted coordinate); contracting the second axis of both
  operands gives X Yᵀ. A lane reduction along one axis is the sum over that axis. A one-value vector broadcast to a
  matrix reads that value everywhere (the per-row column forms are the general keepdims lemmas imported here).
-/
import proofs.«152169_j37984690765992_2_alg».proof.Proof.Gen.KernelIdeal.Skeleton
import proofs.«152169_j37984690765992_2_alg».proof.Proof.Spec
import proofs.«152169_j37984690765992_2_alg».proof.Proof.LibKeepdims
import Idealize.ShloMosaic.Lib.Pipeline.Value
import Idealize.ShloMosaic.Lib.ValueIdx
import Idealize.ShloMosaic.PureOps.Ideal.Laws

open scoped BigOperators

noncomputable section

namespace Cert.KernelIdeal.KValue

open Cert.KernelIdeal Cert.KernelIdeal.Gen Cert.Ortho Idealize.ShloMosaic Idealize.ShloMosaic.ValueIdx

/-- A [32, 32] vector as a matrix. -/
def m2 (X : S32x32.Idx → EReal) : Mat 32 32 := fun a b => X (ix2 a b)

/-- A [32, 18432] vector as a matrix. -/
def z2 (X : S32x18432.Idx → EReal) : Mat 32 18432 := fun a k => X (ix2 a k)

/-! ## Matrix products -/

/-- [32,32] by [32,32] into zero: the matrix product. -/
theorem mm32_read (p : Option ContractPrecision) (X Y : FVec Ideal S32x32 .f32) (a b : Fin 32) :
    matmul dot_S32x32_S32x32_S32x32_1_0_0_1_n_n p X Y (constant S32x32 .f32 0x00000000#32) (ix2 a b)
      = mm (m2 X) (m2 Y) a b := by
  refine (Ideal.matmul_constant_zero_apply dot_S32x32_S32x32_S32x32_1_0_0_1_n_n p X Y (ix2 a b)).trans ?_
  have hr : (dot_S32x32_S32x32_S32x32_1_0_0_1_n_n).contr.rank = 1 := rfl
  have hs : (dot_S32x32_S32x32_S32x32_1_0_0_1_n_n).contr.size ⟨0, by omega⟩ = 32 := rfl
  rw [← Equiv.sum_comp (contrEquiv1 dot_S32x32_S32x32_S32x32_1_0_0_1_n_n 32 hr hs).symm]
  refine Finset.sum_congr rfl fun d _ => ?_
  congr 1
  · refine congrArg X (funext fun ax => Fin.ext ?_)
    match ax with
    | ⟨0, _⟩ => rfl
    | ⟨1, _⟩ => exact contrEquiv1_symm_val dot_S32x32_S32x32_S32x32_1_0_0_1_n_n 32 hr hs d
  · refine congrArg Y (funext fun ax => Fin.ext ?_)
    match ax with
    | ⟨0, _⟩ => exact contrEquiv1_symm_val dot_S32x32_S32x32_S32x32_1_0_0_1_n_n 32 hr hs d
    | ⟨1, _⟩ => rfl

theorem mm32_eq (p : Option ContractPrecision) (X Y : FVec Ideal S32x32 .f32) :
    m2 (matmul dot_S32x32_S32x32_S32x32_1_0_0_1_n_n p X Y (constant S32x32 .f32 0x00000000#32)) = mm (m2 X) (m2 Y) :=
  funext fun a => funext fun b => mm32_read p X Y a b

/-- [32,32] by [32,18432] into zero: the matrix product. -/
theorem mmZ_read {φ₁ φ₂ : FTy} (p : Option ContractPrecision) (X : FVec Ideal S32x32 φ₁) (Z : FVec Ideal S32x18432 φ₂) (a : Fin 32) (q : Fin 18432) :
    matmul dot_S32x32_S32x18432_S32x18432_1_0_0_1_n_n p X Z (constant S32x18432 .f32 0x00000000#32) (ix2 a q)
      = mm (m2 X) (z2 Z) a q := by
  refine (Ideal.matmul_constant_zero_apply dot_S32x32_S32x18432_S32x18432_1_0_0_1_n_n p X Z (ix2 a q)).trans ?_
  have hr : (dot_S32x32_S32x18432_S32x18432_1_0_0_1_n_n).contr.rank = 1 := rfl
  have hs : (dot_S32x32_S32x18432_S32x18432_1_0_0_1_n_n).contr.size ⟨0, by omega⟩ = 32 := rfl
  rw [← Equiv.sum_comp (contrEquiv1 dot_S32x32_S32x18432_S32x18432_1_0_0_1_n_n 32 hr hs).symm]
  refine Finset.sum_congr rfl fun d _ => ?_
  congr 1
  · refine congrArg X (funext fun ax => Fin.ext ?_)
    match ax with
    | ⟨0, _⟩ => rfl
    | ⟨1, _⟩ => exact contrEquiv1_symm_val dot_S32x32_S32x18432_S32x18432_1_0_0_1_n_n 32 hr hs d
  · refine congrArg Z (funext fun ax => Fin.ext ?_)
    match ax with
    | ⟨0, _⟩ => exact contrEquiv1_symm_val dot_S32x32_S32x18432_S32x18432_1_0_0_1_n_n 32 hr hs d
    | ⟨1, _⟩ => rfl

/-- [32,18432] by [32,18432], both contracted along the columns, into zero: X Yᵀ. -/
theorem gram_read {φ₁ φ₂ : FTy} (p : Option ContractPrecision) (X : FVec Ideal S32x18432 φ₁) (Y : FVec Ideal S32x18432 φ₂) (a b : Fin 32) :
    matmul dot_S32x18432_S32x18432_S32x32_1_1_0_0_n_n p X Y (constant S32x32 .f32 0x00000000#32) (ix2 a b)
      = ∑ l : Fin 18432, X (ix2 a l) * Y (ix2 b l) := by
  refine (Ideal.matmul_constant_zero_apply dot_S32x18432_S32x18432_S32x32_1_1_0_0_n_n p X Y (ix2 a b)).trans ?_
  have hr : (dot_S32x18432_S32x18432_S32x32_1_1_0_0_n_n).contr.rank = 1 := rfl
  have hs : (dot_S32x18432_S32x18432_S32x32_1_1_0_0_n_n).contr.size ⟨0, by omega⟩ = 18432 := rfl
  rw [← Equiv.sum_comp (contrEquiv1 dot_S32x18432_S32x18432_S32x32_1_1_0_0_n_n 18432 hr hs).symm]
  refine Finset.sum_congr rfl fun d _ => ?_
  congr 1
  · refine congrArg X (funext fun ax => Fin.ext ?_)
    match ax with
    | ⟨0, _⟩ => rfl
    | ⟨1, _⟩ => exact contrEquiv1_symm_val dot_S32x18432_S32x18432_S32x32_1_1_0_0_n_n 18432 hr hs d
  · refine congrArg Y (funext fun ax => Fin.ext ?_)
    match ax with
    | ⟨0, _⟩ => rfl
    | ⟨1, _⟩ => exact contrEquiv1_symm_val dot_S32x18432_S32x18432_S32x32_1_1_0_0_n_n 18432 hr hs d

/-! ## Lane sums -/

/-- The sum along the columns of a [32, 18432] vector, at row a. -/
theorem rowsumZ_read (v : FVec Ideal S32x18432 .f32) (h : S32x18432.Reduces [1] S32) (hφ : FKind.Formats .f32)
    (hacc : (0x00000000#32 : BitVec 32) = FKind.add.neutral .f32 hφ) (a : Fin 32) :
    multiReduction .add [1] S32 v 0x00000000#32 h hφ hacc (ix1 a) = ∑ l : Fin 18432, v (ix2 a l) :=
  (Ideal.multiReduction_add_single v 0x00000000#32 h hφ hacc (ix1 a)).trans
    (Finset.sum_congr rfl fun l _ => congrArg v (funext fun ax => Fin.ext (by
      match ax with
      | ⟨0, _⟩ => rfl
      | ⟨1, _⟩ => rfl)))

/-- The sum along the columns of a [32, 32] vector, at row a. -/
theorem rowsum32_read (v : FVec Ideal S32x32 .f32) (h : S32x32.Reduces [1] S32) (hφ : FKind.Formats .f32)
    (hacc : (0x00000000#32 : BitVec 32) = FKind.add.neutral .f32 hφ) (a : Fin 32) :
    multiReduction .add [1] S32 v 0x00000000#32 h hφ hacc (ix1 a) = ∑ l : Fin 32, v (ix2 a l) :=
  (Ideal.multiReduction_add_single v 0x00000000#32 h hφ hacc (ix1 a)).trans
    (Finset.sum_congr rfl fun l _ => congrArg v (funext fun ax => Fin.ext (by
      match ax with
      | ⟨0, _⟩ => rfl
      | ⟨1, _⟩ => rfl)))

/-- The sum down the one column of a [32, 1] vector. -/
theorem colsum_read (v : FVec Ideal S32x1 .f32) (h : S32x1.Reduces [0] S1) (hφ : FKind.Formats .f32)
    (hacc : (0x00000000#32 : BitVec 32) = FKind.add.neutral .f32 hφ) (u : Fin 1) :
    multiReduction .add [0] S1 v 0x00000000#32 h hφ hacc (ix1 u) = ∑ a : Fin 32, v (ix2 a (0 : Fin 1)) :=
  (Ideal.multiReduction_add_single v 0x00000000#32 h hφ hacc (ix1 u)).trans
    (Finset.sum_congr rfl fun l _ => congrArg v (funext fun ax => Fin.ext (by
      match ax with
      | ⟨0, _⟩ => rfl
      | ⟨1, _⟩ => show (u : ℕ) = 0; omega)))

/-! ## Casts and broadcasts of small shapes -/

variable {α : Type}

/-- A one-value [1, 1] vector broadcast to [a, b]: that value everywhere. -/
theorem bcast_one_read {a b : ℕ} (v : (⟨2, ![1, 1]⟩ : Shape).Idx → α) (h : (⟨2, ![1, 1]⟩ : Shape).Broadcasts ⟨2, ![a, b]⟩)
    (i : Fin a) (j : Fin b) : broadcastTo ⟨2, ![a, b]⟩ v h (ix2 i j) = v (ix2 (0 : Fin 1) (0 : Fin 1)) := by
  refine broadcastTo_apply v h (ix2 i j) (ix2 (0 : Fin 1) (0 : Fin 1)) fun ax => ?_
  match ax with
  | ⟨0, _⟩ => rfl
  | ⟨1, _⟩ => rfl

/-! ## The identity matrix from two iotas -/

/-- Rows equal to columns, as 0 / 1: the identity matrix. -/
theorem eye_read (h0 : S32x32.Iotas .tc 32 [0]) (h1 : S32x32.Iotas .tc 32 [1]) (hlt : 1 < 32) (a b : Fin 32) :
    (sitofp .f32 (extui 32 (cmpi .eq (iota .tc S32x32 32 [0] h0) (iota .tc S32x32 32 [1] h1)) hlt) : FVec Ideal S32x32 .f32) (ix2 a b)
      = eye a b := by
  show FloatOps.sitofp .f32 ((cmpi .eq (iota .tc S32x32 32 [0] h0) (iota .tc S32x32 32 [1] h1) (ix2 a b)).setWidth 32) = _
  have e0 : iota .tc S32x32 32 [0] h0 (ix2 a b) = BitVec.ofNat 32 a.val := iota_single_apply .tc S32x32 32 0 h0 (ix2 a b)
  have e1 : iota .tc S32x32 32 [1] h1 (ix2 a b) = BitVec.ofNat 32 b.val := iota_single_apply .tc S32x32 32 1 h1 (ix2 a b)
  unfold eye
  by_cases hab : a = b
  · subst hab
    rw [if_pos rfl]
    have : cmpi .eq (iota .tc S32x32 32 [0] h0) (iota .tc S32x32 32 [1] h1) (ix2 a a) = 1#1 := by
      show IntOp.cmpi .eq (iota .tc S32x32 32 [0] h0 (ix2 a a)) (iota .tc S32x32 32 [1] h1 (ix2 a a)) = 1#1
      rw [e0, e1]; simp [IntOp.cmpi]
    rw [this]
    show ((((1#1 : BitVec 1).setWidth 32).toInt : ℝ) : EReal) = 1
    have h1 : ((1#1 : BitVec 1).setWidth 32).toInt = 1 := by decide
    rw [h1]; simp
  · rw [if_neg hab]
    have : cmpi .eq (iota .tc S32x32 32 [0] h0) (iota .tc S32x32 32 [1] h1) (ix2 a b) = 0#1 := by
      show IntOp.cmpi .eq (iota .tc S32x32 32 [0] h0 (ix2 a b)) (iota .tc S32x32 32 [1] h1 (ix2 a b)) = 0#1
      rw [e0, e1]
      have hne : BitVec.ofNat 32 a.val ≠ BitVec.ofNat 32 b.val := by
        intro h
        have := congrArg BitVec.toNat h
        simp only [BitVec.toNat_ofNat] at this
        have ha := a.isLt; have hb := b.isLt
        rw [Nat.mod_eq_of_lt (by omega), Nat.mod_eq_of_lt (by omega)] at this
        exact hab (Fin.ext this)
      have hb : (BitVec.ofNat 32 a.val == BitVec.ofNat 32 b.val) = false := beq_eq_false_iff_ne.mpr hne
      simp [IntOp.cmpi, hb]
    rw [this]
    show ((((0#1 : BitVec 1).setWidth 32).toInt : ℝ) : EReal) = 0
    have h0' : ((0#1 : BitVec 1).setWidth 32).toInt = 0 := by decide
    rw [h0']; simp

end Cert.KernelIdeal.KValue

end
-- ==== Proof.KPay.lean ====
/-
  What the kernel body stores for one group of 32 rows, as the specification's function of the rows it loaded.

  The body treats the two groups of a 64-row block alike. For a loaded group v it forms the centred rows, the
  regularised Gram matrix, its Frobenius norm, the normalised matrix, five Newton–Schulz steps from the identity, and
  stores the last iterate times the centred rows, times the reciprocal of the square root of the norm. The printed
  text cuts this computation into named pieces at different places for the first and the second group; both are the same
  composition of the same operations, so the second is the first at the other loaded rows.
-/
import proofs.«152169_j37984690765992_2_alg».proof.Proof.KOps

open scoped BigOperators

noncomputable section

namespace Cert.KernelIdeal.KValue

open Cert.KernelIdeal Cert.KernelIdeal.Gen Cert.Ortho Idealize.ShloMosaic Idealize.ShloMosaic.ValueIdx

/-- The pattern of 1.0 denotes 1. -/
theorem ofBits_one : Ideal.ofBits .f32 0x3F800000#32 = 1 := by
  simp [Ideal.ofBits, Ideal.ieee, -EReal.coe_mul]; norm_num

/-! ## One Newton–Schulz step, as the body spells it -/

/-- 1.5·B − 0.5·(((B B) B) Sₙ), with the three products into zero accumulators. -/
def kstep (Sn B : FVec Ideal S32x32 .f32) : FVec Ideal S32x32 .f32 :=
  subf (mulf (broadcast S32x32 (Scalar.ofBits .f32 0x3FC00000#32)) B)
    (mulf (broadcast S32x32 (Scalar.ofBits .f32 0x3F000000#32))
      (matmul dot_S32x32_S32x32_S32x32_1_0_0_1_n_n (some .fp32)
        (matmul dot_S32x32_S32x32_S32x32_1_0_0_1_n_n (some .fp32)
          (matmul dot_S32x32_S32x32_S32x32_1_0_0_1_n_n (some .fp32) B B (constant S32x32 .f32 0x00000000#32))
          B (constant S32x32 .f32 0x00000000#32))
        Sn (constant S32x32 .f32 0x00000000#32)))

theorem kstep_read (Sn B : FVec Ideal S32x32 .f32) : m2 (kstep Sn B) = step (m2 Sn) (m2 B) := by
  funext a b
  have e1 := mm32_eq (some .fp32) B B
  have e2 := mm32_eq (some .fp32)
    (matmul dot_S32x32_S32x32_S32x32_1_0_0_1_n_n (some .fp32) B B (constant S32x32 .f32 0x00000000#32)) B
  have e3 := mm32_eq (some .fp32)
    (matmul dot_S32x32_S32x32_S32x32_1_0_0_1_n_n (some .fp32)
      (matmul dot_S32x32_S32x32_S32x32_1_0_0_1_n_n (some .fp32) B B (constant S32x32 .f32 0x00000000#32))
      B (constant S32x32 .f32 0x00000000#32)) Sn
  rw [e2, e1] at e3
  exact congrArg (fun t => c15 * B (ix2 a b) - c05 * t) (congrFun (congrFun e3 a) b)

/-! ## The pieces of the first group -/

/-- The centred rows. -/
theorem pay2_read (v : Vec Ideal S32x18432 .f32) : z2 (k0_pay2 (F := Ideal) v) = center (z2 v) := by
  funext a k
  have e : k0_pay2 (F := Ideal) v (ix2 a k)
      = v (ix2 a k) - (broadcastTo S32x18432 (divf (shapeCast S32x1 (multiReduction (F := Ideal) .add [1] S32 v 0x00000000#32 reduces_S32x18432_S32 (.inl rfl) rfl) shapeCasts_S32_S32x1) (broadcast S32x1 (Scalar.ofBits (F := Ideal) .f32 0x46900000#32))) broadcasts_S32x1_S32x18432) (ix2 a k) := rfl
  refine e.trans ?_
  refine congrArg (fun t => v (ix2 a k) - t) ?_
  refine (Cert.LibKeepdims.broadcastTo_a1_ab_apply _ _ a k).trans ?_
  have e' : (divf (shapeCast S32x1 (multiReduction (F := Ideal) .add [1] S32 v 0x00000000#32 reduces_S32x18432_S32 (.inl rfl) rfl) shapeCasts_S32_S32x1) (broadcast S32x1 (Scalar.ofBits (F := Ideal) .f32 0x46900000#32))) (ix2 a (0 : Fin 1))
      = Ideal.div (shapeCast S32x1 (multiReduction (F := Ideal) .add [1] S32 v 0x00000000#32 reduces_S32x18432_S32 (.inl rfl) rfl) shapeCasts_S32_S32x1 (ix2 a (0 : Fin 1))) cD := rfl
  refine e'.trans ?_
  refine congrArg (fun t => Ideal.div t cD) ?_
  refine (Cert.LibKeepdims.shapeCast_a_a1_apply _ _ a (0 : Fin 1)).trans ?_
  exact rowsumZ_read v _ _ _ a

/-- The identity matrix. -/
theorem pay3_read : m2 (k0_pay3 (F := Ideal)) = eye :=
  funext fun a => funext fun b => eye_read _ _ _ a b

/-- The regularised Gram matrix of the centred rows. -/
theorem pay4_read (v : Vec Ideal S32x18432 .f32) : m2 (k0_pay4 (F := Ideal) v) = reg (z2 (k0_pay2 v)) := by
  funext a b
  have e : k0_pay4 (F := Ideal) v (ix2 a b)
      = matmul dot_S32x18432_S32x18432_S32x32_1_1_0_0_n_n none (k0_pay2 (F := Ideal) v) (k0_pay2 (F := Ideal) v) (constant S32x32 .f32 0x00000000#32) (ix2 a b)
        + cEps * k0_pay3 (F := Ideal) (ix2 a b) := rfl
  have h3 : k0_pay3 (F := Ideal) (ix2 a b) = eye a b := congrFun (congrFun pay3_read a) b
  refine e.trans ?_
  rw [gram_read, h3]
  rfl

/-- The square root of a vector, at an index. -/
theorem vsqrt_apply {s : Shape} (x : FVec Ideal s .f32) (i : s.Idx) : sqrt x i = Ideal.sqrt (x i) := rfl

/-- Its Frobenius norm: the rows' sums of squares, summed, under the square root. -/
theorem pay5_read (v : Vec Ideal S32x18432 .f32) :
    k0_pay5 (F := Ideal) v (ix2 (0 : Fin 1) (0 : Fin 1)) = frob (m2 (k0_pay4 v)) := by
  have e : k0_pay5 (F := Ideal) v
      = sqrt (shapeCast S1x1 (multiReduction (F := Ideal) .add [0] S1 (shapeCast S32x1 (multiReduction (F := Ideal) .add [1] S32 (mulf (k0_pay4 (F := Ideal) v) (k0_pay4 (F := Ideal) v)) 0x00000000#32 reduces_S32x32_S32 (.inl rfl) rfl) shapeCasts_S32_S32x1) 0x00000000#32 reduces_S32x1_S1 (.inl rfl) rfl) shapeCasts_S1_S1x1) := rfl
  rw [e]
  refine (vsqrt_apply _ _).trans ?_
  refine congrArg Ideal.sqrt ?_
  refine (Cert.LibKeepdims.shapeCast_a_a1_apply _ _ (0 : Fin 1) (0 : Fin 1)).trans ?_
  refine (colsum_read _ _ _ _ (0 : Fin 1)).trans ?_
  refine Finset.sum_congr rfl fun a _ => ?_
  refine (Cert.LibKeepdims.shapeCast_a_a1_apply _ _ a (0 : Fin 1)).trans ?_
  exact rowsum32_read _ _ _ _ a

/-- The matrix divided by its norm. -/
theorem pay6_read (v : Vec Ideal S32x18432 .f32) :
    m2 (k0_pay6 (F := Ideal) v) = scaleBy (m2 (k0_pay4 v)) (k0_pay5 v (ix2 (0 : Fin 1) (0 : Fin 1))) := by
  funext a b
  have e : k0_pay6 (F := Ideal) v (ix2 a b)
      = Ideal.div (k0_pay4 (F := Ideal) v (ix2 a b)) (broadcastTo S32x32 (k0_pay5 (F := Ideal) v) broadcasts_S1x1_S32x32 (ix2 a b)) := rfl
  exact e.trans (congrArg (Ideal.div (k0_pay4 (F := Ideal) v (ix2 a b))) (bcast_one_read _ _ a b))

/-- The first two steps. -/
theorem pay7_eq (v : Vec Ideal S32x18432 .f32) :
    k0_pay7 (F := Ideal) v = kstep (k0_pay6 v) (kstep (k0_pay6 v) (k0_pay3 (F := Ideal))) := rfl

/-! ## The stored value: three more steps, the product with the centred rows, the scale -/

/-- The last iterate times the centred rows, times the reciprocal of the root of the norm. -/
def kfinal (v7 : FVec Ideal S32x18432 .bf16) (v22 : FVec Ideal S1x1 .f32) (B : FVec Ideal S32x32 .f32) : FVec Ideal S32x18432 .f32 :=
  mulf (matmul dot_S32x32_S32x18432_S32x18432_1_0_0_1_n_n none (truncf .bf16 B bitsLt_bf16_f32) v7 (constant S32x18432 .f32 0x00000000#32))
    (broadcastTo S32x18432 (divf (broadcast S1x1 (Scalar.ofBits .f32 0x3F800000#32)) (sqrt v22)) broadcasts_S1x1_S32x18432)

theorem pay8_eq (v7 : FVec Ideal S32x18432 .bf16) (v22 : FVec Ideal S1x1 .f32) (v24 v40 : FVec Ideal S32x32 .f32) :
    k0_pay8 (F := Ideal) v7 v22 v24 v40 = kfinal v7 v22 (kstep v24 (kstep v24 (kstep v24 v40))) := rfl

theorem kfinal_read (v7 : FVec Ideal S32x18432 .bf16) (v22 : FVec Ideal S1x1 .f32) (B : FVec Ideal S32x32 .f32) (a : Fin 32) (q : Fin 18432) :
    kfinal v7 v22 B (ix2 a q) = mm (m2 B) (z2 v7) a q * Ideal.div 1 (Ideal.sqrt (v22 (ix2 (0 : Fin 1) (0 : Fin 1)))) := by
  have e : kfinal v7 v22 B (ix2 a q)
      = matmul dot_S32x32_S32x18432_S32x18432_1_0_0_1_n_n none (truncf (F := Ideal) .bf16 B bitsLt_bf16_f32) v7 (constant S32x18432 .f32 0x00000000#32) (ix2 a q)
        * broadcastTo S32x18432 (divf (broadcast S1x1 (Scalar.ofBits (F := Ideal) .f32 0x3F800000#32)) (sqrt v22)) broadcasts_S1x1_S32x18432 (ix2 a q) := rfl
  refine e.trans ?_
  rw [mmZ_read, bcast_one_read]
  have e' : (divf (broadcast S1x1 (Scalar.ofBits (F := Ideal) .f32 0x3F800000#32)) (sqrt v22)) (ix2 (0 : Fin 1) (0 : Fin 1))
      = Ideal.div (Ideal.ofBits .f32 0x3F800000#32) (Ideal.sqrt (v22 (ix2 (0 : Fin 1) (0 : Fin 1)))) := rfl
  rw [e', ofBits_one]
  rfl

/-- THE FIRST GROUP'S STORE: the specification's group function, in its multiplying form, of the loaded rows. -/
theorem payA_read (v : Vec Ideal S32x18432 .f32) :
    z2 (k0_pay8 (F := Ideal) (k0_pay2 v) (k0_pay5 v) (k0_pay6 v) (k0_pay7 v)) = outMul (z2 v) := by
  have hZ : z2 (k0_pay2 (F := Ideal) v) = center (z2 v) := pay2_read v
  have hS : m2 (k0_pay4 (F := Ideal) v) = reg (center (z2 v)) := by rw [pay4_read, hZ]
  have hn : k0_pay5 (F := Ideal) v (ix2 (0 : Fin 1) (0 : Fin 1)) = frob (reg (center (z2 v))) := by rw [pay5_read, hS]
  have hSn : m2 (k0_pay6 (F := Ideal) v) = scaleBy (reg (center (z2 v))) (frob (reg (center (z2 v)))) := by
    rw [pay6_read, hS, hn]
  funext a q
  have e0 : z2 (k0_pay8 (F := Ideal) (k0_pay2 v) (k0_pay5 v) (k0_pay6 v) (k0_pay7 v)) a q
      = k0_pay8 (F := Ideal) (k0_pay2 v) (k0_pay5 v) (k0_pay6 v) (k0_pay7 v) (ix2 a q) := rfl
  rw [e0, pay8_eq, kfinal_read, kstep_read, kstep_read, kstep_read, pay7_eq, kstep_read, kstep_read, pay3_read, hSn, hZ, hn]
  rfl

/-! ## The second group's store is the first's, at the other loaded rows -/

theorem payB_eq (v : Vec Ideal S32x18432 .f32) :
    k0_pay1 (F := Ideal) (k0_pay11 v (k0_pay9 v) (k0_pay10 (F := Ideal))) (k0_pay14 v (k0_pay9 v) (k0_pay10 (F := Ideal)))
        (k0_pay15 v (k0_pay9 v) (k0_pay10 (F := Ideal))) (k0_pay17 v (k0_pay9 v) (k0_pay10 (F := Ideal)))
        (k0_pay18 v (k0_pay9 v) (k0_pay10 (F := Ideal)))
      = k0_pay8 (F := Ideal) (k0_pay2 v) (k0_pay5 v) (k0_pay6 v) (k0_pay7 v) := rfl

theorem payB_read (v : Vec Ideal S32x18432 .f32) :
    z2 (k0_pay1 (F := Ideal) (k0_pay11 v (k0_pay9 v) (k0_pay10 (F := Ideal))) (k0_pay14 v (k0_pay9 v) (k0_pay10 (F := Ideal)))
        (k0_pay15 v (k0_pay9 v) (k0_pay10 (F := Ideal))) (k0_pay17 v (k0_pay9 v) (k0_pay10 (F := Ideal)))
        (k0_pay18 v (k0_pay9 v) (k0_pay10 (F := Ideal)))) = outMul (z2 v) := by
  rw [payB_eq]; exact payA_read v

end Cert.KernelIdeal.KValue

end
-- ==== Proof.KArray.lean ====
/-
  From the blocks to the whole array.

  Grid point t stages rows 64t … 64t + 63 of the argument and writes back the same rows of the result. Within the
  block the body stores rows 0 … 31 and rows 32 … 63 separately, each the group function of the 32 rows it loaded; so
  the block after the body is ONE function of the staged rows: at block row y, the group function of rows
  32·(y / 32) … 32·(y / 32) + 31, read at row y mod 32. Row 64t + y of the array belongs to group 2t + y / 32 and sits at
  row y mod 32 of it, so what point t writes back is block t of the array-level function; the 32 blocks tile the array
  (row r is in point r / 64's block), and the result array ends holding that function of the argument array.
-/
import proofs.«152169_j37984690765992_2_alg».proof.Proof.KPay
import proofs.«152169_j37984690765992_2_alg».proof.Proof.Gen.KernelIdeal.Value

open scoped BigOperators

noncomputable section

namespace Cert.KernelIdeal.KValue

open Cert.KernelIdeal Cert.KernelIdeal.Gen Cert.Ortho Idealize.ShloMosaic Idealize.ShloMosaic.ValueIdx
open Idealize.ShloMosaic.TcCoe Idealize.SL.Sem
open Idealize.ShloMosaic.Pipeline (Dat)

/-! ## The block after the body -/

/-- The group function respects equal arguments (a rewriting convenience). -/
theorem outMul_congr {M M' : Mat 32 18432} {i i' : Fin 32} {j j' : Fin 18432} (hM : M = M') (hi : i = i') (hj : j = j') :
    outMul M i j = outMul M' i' j' := by subst hM hi hj; rfl

/-- The block as one function of the staged rows. -/
def blkOf (x0 : S64x18432.Idx → EReal) : S64x18432.Idx → EReal := fun y =>
  outMul (fun a l => x0 (ix2 (⟨32 * ((y 0).val / 32) + a.val, by have := idx2_lt0 y; omega⟩ : Fin 64) l))
    (⟨(y 0).val % 32, Nat.mod_lt _ (by norm_num)⟩ : Fin 32) (⟨(y 1).val, idx2_lt1 y⟩ : Fin 18432)

/-- The body's two stores leave that function in the output's staging buffer. -/
theorem out_eq (x0 : Vec Ideal S64x18432 .f32) (y : S64x18432.Idx) : out0_1 (F := Ideal) x0 y = blkOf x0 y := by
  unfold out0_1
  refine View.canon_apply_of_pieces (Val := Elt Ideal) (e := .f32) (blkOf x0) _ ?_ y (cover0_1 _ _ y)
  intro p hp x
  simp only [List.mem_cons, List.not_mem_nil, or_false] at hp
  rcases hp with rfl | rfl
  · -- rows 32 … 63
    obtain ⟨a, l, rfl⟩ : ∃ (a : Fin 32) (l : Fin 18432), (x : S32x18432.Idx) = ix2 a l := ⟨x 0, x 1, eq_ix2 (n0 := 32) (n1 := 18432) x⟩
    refine (congrFun (congrFun (payB_read (View.ld x0 r0_1)) a) l).trans ?_
    unfold blkOf
    refine outMul_congr (funext fun a' => funext fun l' => congrArg x0 (funext fun ax => Fin.ext ?_)) (Fin.ext ?_) (Fin.ext ?_)
    · match ax with
      | ⟨0, _⟩ =>
        show 32 + 1 * a'.val = 32 * ((32 + 1 * a.val) / 32) + a'.val
        have := a.isLt; omega
      | ⟨1, _⟩ =>
        show 0 + 1 * l'.val = l'.val
        omega
    · show a.val = (32 + 1 * a.val) % 32
      have := a.isLt; omega
    · show l.val = 0 + 1 * l.val
      omega
  · -- rows 0 … 31
    obtain ⟨a, l, rfl⟩ : ∃ (a : Fin 32) (l : Fin 18432), (x : S32x18432.Idx) = ix2 a l := ⟨x 0, x 1, eq_ix2 (n0 := 32) (n1 := 18432) x⟩
    refine (congrFun (congrFun (payA_read (View.ld x0 r0_0)) a) l).trans ?_
    unfold blkOf
    refine outMul_congr (funext fun a' => funext fun l' => congrArg x0 (funext fun ax => Fin.ext ?_)) (Fin.ext ?_) (Fin.ext ?_)
    · match ax with
      | ⟨0, _⟩ =>
        show 0 + 1 * a'.val = 32 * ((0 + 1 * a.val) / 32) + a'.val
        have := a.isLt; omega
      | ⟨1, _⟩ =>
        show 0 + 1 * l'.val = l'.val
        omega
    · show a.val = (0 + 1 * a.val) % 32
      have := a.isLt; omega
    · show l.val = 0 + 1 * l.val
      omega

/-- If the staged block is rows 64T … 64T + 63 of an array A, the block after the body is the same rows of the
    array-level function of A. -/
theorem blk_at (A : S2048x18432.Idx → EReal) (x0 : S64x18432.Idx → EReal) (T : ℕ)
    (hx : ∀ (x : S64x18432.Idx) (k : S2048x18432.Idx), (k 0).val = 64 * T + (x 0).val → (k 1).val = (x 1).val → x0 x = A k)
    (y : S64x18432.Idx) (i : S2048x18432.Idx) (hi0 : (i 0).val = 64 * T + (y 0).val) (hi1 : (i 1).val = (y 1).val) :
    blkOf x0 y = resultOf outMul A i := by
  have hy0 := idx2_lt0 y
  unfold blkOf resultOf arrOf grp
  refine outMul_congr (funext fun a' => funext fun l' => ?_) (Fin.ext ?_) (Fin.ext ?_)
  · refine hx _ _ ?_ ?_
    · show 32 * ((i 0).val / 32) + a'.val = 64 * T + (32 * ((y 0).val / 32) + a'.val)
      omega
    · rfl
  · show (y 0).val % 32 = (i 0).val % 32
    omega
  · show (y 1).val = (i 1).val
    omega

/-! ## The points' blocks -/

variable (m : (ℓ : Loc nD τ sig) → Buf (Elt Ideal) ℓ) (ρ : Dev nD → PrngReg)

/-- The printed index maps over the grid: point t's block is block (t, 0) of both arrays. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, win0_0.index t (0 : Fin 2) = t.val ∧ win0_0.index t (1 : Fin 2) = 0
    ∧ win0_1.index t (0 : Fin 2) = t.val ∧ win0_1.index t (1 : Fin 2) = 0)

/-- The input window's block at point t is rows 64t … 64t + 63 of the argument. -/
theorem iblk_apply (c : Dev nD) (t : Fin cfg0.N) (x : S64x18432.Idx) (k : S2048x18432.Idx)
    (hk0 : (k 0).val = 64 * t.val + (x 0).val) (hk1 : (k 1).val = (x 1).val) :
    (iblk m c 0 t : Vec Ideal S64x18432 .f32) x = (m ((c : Thread nD τ).loc main_arg0) : S2048x18432.Idx → EReal) k := by
  obtain ⟨h00, h01, -, -⟩ := idx_facts t
  unfold iblk
  rw [View.read_apply]
  show V m c main_arg0 _ = m (c.tc.loc main_arg0) _
  unfold V
  congr 1
  funext a
  apply Fin.ext
  match a with
  | ⟨0, _⟩ => show win0_0.index t 0 * 64 + 1 * (x 0).val = (k 0).val; rw [h00, hk0]; omega
  | ⟨1, _⟩ => show win0_0.index t 1 * 18432 + 1 * (x 1).val = (k 1).val; rw [h01, hk1]; omega

/-- WHAT POINT t WRITES BACK is block t of the array-level function of the argument. -/
theorem flushed_eq (c : Dev nD) (t : Fin cfg0.N) :
    (dats m 0 c).flushed 1 t
      = ((cfg0.win 1).blk t).view.read (Elt Ideal) (resultOf outMul (m ((c : Thread nD τ).loc main_arg0))) := by
  obtain ⟨-, -, h10, h11⟩ := idx_facts t
  rw [Cert.KernelIdeal.Value.flushed1]
  funext j
  show out0_1 (F := Ideal) (iblk m c 0 t) j = resultOf outMul (m ((c : Thread nD τ).loc main_arg0)) (((cfg0.win 1).blk t).view.emb j)
  rw [out_eq]
  refine blk_at _ _ t.val (fun x k h0 h1 => iblk_apply m c t x k h0 h1) _ _ ?_ ?_
  · show win0_1.index t 0 * 64 + 1 * (j 0).val = 64 * t.val + (j 0).val
    rw [h10]; omega
  · show win0_1.index t 1 * 18432 + 1 * (j 1).val = (j 1).val
    rw [h11]; omega

/-- An index of the array is in point t's block iff each coordinate is in the block's range on its axis. -/
theorem mem_blk (t : Fin cfg0.N) (i : S2048x18432.Idx) :
    i ∈ ((cfg0.win 1).blk t).view.set ↔ ∀ a : Fin 2, win0_1.index t a * S64x18432.size a ≤ (i a).val ∧ (i a).val < win0_1.index t a * S64x18432.size a + S64x18432.size a := by
  show i ∈ ((View.whole main_v0).slice (win0_1.rect t)).set ↔ _
  rw [View.set_slice_whole, Rect.mem_set_unit]
  exact Iff.rfl

/-- Every index of the array is in some point's block: row r in point r / 64's. -/
theorem cover (i : S2048x18432.Idx) : ∃ t : Fin cfg0.N, (cfg0.win 1).flush t = true ∧ i ∈ ((cfg0.win 1).blk t).view.set := by
  have hi0 := idx2_lt0 i
  have hi1 := idx2_lt1 i
  have hN : cfg0.N = 32 := N_0
  let t : Fin cfg0.N := ⟨(i 0).val / 64, by rw [hN]; omega⟩
  obtain ⟨-, -, h10, h11⟩ := idx_facts t
  refine ⟨t, flush0_1 t, ?_⟩
  rw [mem_blk]
  intro a
  match a with
  | ⟨0, _⟩ =>
    show win0_1.index t 0 * 64 ≤ (i 0).val ∧ (i 0).val < win0_1.index t 0 * 64 + 64
    rw [h10]; show (i 0).val / 64 * 64 ≤ (i 0).val ∧ (i 0).val < (i 0).val / 64 * 64 + 64; omega
  | ⟨1, _⟩ =>
    show win0_1.index t 1 * 18432 ≤ (i 1).val ∧ (i 1).val < win0_1.index t 1 * 18432 + 18432
    rw [h11]; omega

/-- THE ARRAY after the run: the array-level function of the argument. -/
theorem final (c : Dev nD) :
    (dats m 0 c).arrAt 1 cfg0.N = resultOf outMul (m ((c : Thread nD τ).loc main_arg0)) :=
  (dats m 0 c).arrAt_eq_of_cover 1 (resultOf outMul (m ((c : Thread nD τ).loc main_arg0))) (fun t _ => flushed_eq m c t) cover

/-- The run, read: the result array at the array-level function of the argument, the argument unchanged. -/
theorem run : θ_run defs (onTc (τ := τ) (main (F := Ideal))) ⟨m, fun _ => 0, ρ⟩ fun r => ∀ c : Dev nD,
      r.2.mem ((c : Thread nD τ).loc main_v0) = resultOf outMul (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.KValue

end
-- ==== Proof.RefValue.lean ====
/-
  The reference program's result, read index by index at the ideal values, is the Newton–Schulz orthogonalisation of
  the specification (namespace Cert.Ortho) applied group by group, in its dividing form.

  A batched array [64, n, m] is viewed through its group g as an n × m matrix. Each kind of printed stage is read at an
  index once, over variables: a batched product is the matrix product of the groups (the sum over the one contracted
  coordinate); the pointwise stages read through; a broadcast reads its operand at the coordinates it keeps, 0 on a
  unit axis; the reshape [2048, 18432] ↔ [64, 32, 18432] pairs row r with (r / 32, r % 32); the row sum is the sum over
  the last coordinate; the sum over both matrix axes is the double sum, rows first; and the compared iotas are the
  identity matrix. Then the named intermediate arrays are identified, bottom up, with the specification's matrices, and the
  result follows at every index.
-/
import proofs.«152169_j37984690765992_2_alg».proof.Proof.Gen.ReferenceIdeal.Run
import proofs.«152169_j37984690765992_2_alg».proof.Proof.Spec
import Idealize.ShloMosaic.Lib.ValueIdx
import Idealize.ShloMosaic.Lib.IdealHost
import Idealize.ShloMosaic.Lib.StackMember
import Idealize.ShloMosaic.Lib.Pipeline.Value
import Idealize.ShloMosaic.PureOps.Ideal.Laws

open scoped BigOperators

noncomputable section

namespace Cert.ReferenceIdeal.RefValue

open Cert.ReferenceIdeal Cert.ReferenceIdeal.Gen Cert.ReferenceIdeal.Value Cert.Ortho
open Idealize.ShloMosaic Idealize.ShloMosaic.ValueIdx Idealize.SL.Sem

/-! ## Groups of a batched array -/

/-- Group g of a batched [64, 32, 32] array, as a matrix. -/
def m3 (X : S64x32x32.Idx → EReal) (g : Fin 64) : Mat 32 32 := fun a b => X (ix3 g a b)
/-- Group g of a batched [64, 32, 18432] array, as a matrix. -/
def z3 (X : S64x32x18432.Idx → EReal) (g : Fin 64) : Mat 32 18432 := fun a b => X (ix3 g a b)

/-- The group's regularised Gram matrix divided by its Frobenius norm. -/
def nrm (W : Mat 32 18432) : Mat 32 32 := scaleBy (reg (center W)) (frob (reg (center W)))

/-! ## The three batched products, read at an index -/

/-- [64, 32, 32] by [64, 32, 32], group by group: the sum over the contracted coordinate. -/
theorem dotSq_apply (X Y : FVec Ideal S64x32x32 .f32) (g : Fin 64) (a b : Fin 32) :
    Host.dotGeneral dot_S64x32x32_S64x32x32_S64x32x32_2_1_1_2_0_0 none X Y (ix3 g a b)
      = ∑ l : Fin 32, X (ix3 g a l) * Y (ix3 g l b) :=
  StackMember.dotGeneral_stack_apply dot_S64x32x32_S64x32x32_S64x32x32_2_1_1_2_0_0_wf none X Y g a b

/-- [64, 32, 32] by [64, 32, 18432], group by group. -/
theorem dotLast_apply (X : FVec Ideal S64x32x32 .f32) (Y : FVec Ideal S64x32x18432 .f32) (g : Fin 64) (a : Fin 32)
    (q : Fin 18432) :
    Host.dotGeneral dot_S64x32x32_S64x32x18432_S64x32x18432_2_1_1_2_0_0 none X Y (ix3 g a q)
      = ∑ l : Fin 32, X (ix3 g a l) * Y (ix3 g l q) :=
  StackMember.dotGeneral_stack_apply dot_S64x32x32_S64x32x18432_S64x32x18432_2_1_1_2_0_0_wf none X Y g a q

/-- [64, 32, 18432] by [64, 32, 18432] contracting the last axis of both, group by group: rows against rows. -/
theorem gram_apply (X Y : FVec Ideal S64x32x18432 .f32) (g : Fin 64) (a b : Fin 32) :
    Host.dotGeneral dot_S64x32x18432_S64x32x18432_S64x32x32_2_2_1_1_0_0 none X Y (ix3 g a b)
      = ∑ l : Fin 18432, X (ix3 g a l) * Y (ix3 g b l) := by
  show FloatOps.dotGeneral _ none _ X Y (ix3 g a b) = _
  rw [Ideal.dotGeneral_apply]
  have hr : dot_S64x32x18432_S64x32x18432_S64x32x32_2_2_1_1_0_0.contr.rank = 1 := rfl
  have hs : dot_S64x32x18432_S64x32x18432_S64x32x32_2_2_1_1_0_0.contr.size ⟨0, by omega⟩ = 18432 := rfl
  rw [← Equiv.sum_comp (contrEquiv1 dot_S64x32x18432_S64x32x18432_S64x32x32_2_2_1_1_0_0 18432 hr hs).symm]
  refine Finset.sum_congr rfl fun d _ => ?_
  congr 1
  · refine congrArg X (funext fun ax => Fin.ext ?_)
    match ax with
    | ⟨0, _⟩ => rfl
    | ⟨1, _⟩ => rfl
    | ⟨2, _⟩ =>
      exact (DotDims.lhsIdx_val_of_single _ rfl _ _).trans
        (contrEquiv1_symm_val dot_S64x32x18432_S64x32x18432_S64x32x32_2_2_1_1_0_0 18432 hr hs d)
  · refine congrArg Y (funext fun ax => Fin.ext ?_)
    match ax with
    | ⟨0, _⟩ => rfl
    | ⟨1, _⟩ => rfl
    | ⟨2, _⟩ =>
      exact (DotDims.rhsIdx_val_of_single _ rfl _ _).trans
        (contrEquiv1_symm_val dot_S64x32x18432_S64x32x18432_S64x32x32_2_2_1_1_0_0 18432 hr hs d)

theorem m3_dot (X Y : FVec Ideal S64x32x32 .f32) (g : Fin 64) :
    m3 (Host.dotGeneral dot_S64x32x32_S64x32x32_S64x32x32_2_1_1_2_0_0 none X Y) g = mm (m3 X g) (m3 Y g) := by
  funext a b
  exact dotSq_apply X Y g a b

/-! ## The two reshapes -/

/-- The [2048, 18432] array seen as [64, 32, 18432]: entry (g, a, k) is row 32 g + a, column k. -/
theorem split_apply (A : S2048x18432.Idx → EReal) (g : Fin 64) (a : Fin 32) (k : Fin 18432) :
    shapeCast S64x32x18432 A shapeCasts_S2048x18432_S64x32x18432 (ix3 g a k)
      = A (ix2 (⟨32 * g.val + a.val, by omega⟩ : Fin 2048) k) :=
  shapeCast_apply A _ _ _ (by
    rw [Shape.rowMajor_val_two, Shape.rowMajor_val_three]
    show (32 * g.val + a.val) * 18432 + k.val = (g.val * 32 + a.val) * 18432 + k.val
    omega)

/-- And back: row r, column q of the [2048, 18432] view is entry (r / 32, r % 32, q). -/
theorem merge_apply (Y : S64x32x18432.Idx → EReal) (r : Fin 2048) (q : Fin 18432) :
    shapeCast S2048x18432 Y shapeCasts_S64x32x18432_S2048x18432 (ix2 r q)
      = Y (ix3 (⟨r.val / 32, by omega⟩ : Fin 64) (⟨r.val % 32, Nat.mod_lt _ (by norm_num)⟩ : Fin 32) q) :=
  shapeCast_apply Y _ _ _ (by
    rw [Shape.rowMajor_val_two, Shape.rowMajor_val_three]
    show (r.val / 32 * 32 + r.val % 32) * 18432 + q.val = r.val * 18432 + q.val
    have := Nat.div_add_mod r.val 32
    omega)

/-! ## The two sums -/

/-- The sum along the last axis of a [64, 32, 18432] array, from zero. -/
theorem rowSum_apply (X : FVec Ideal S64x32x18432 .f32) (g : Fin 64) (a : Fin 32) :
    Host.reduceAdd X (constant (F := Ideal) S_ .f32 0x00000000#32) reducesTo_S64x32x18432_S64x32_d2 h_S_ (ix2 g a)
      = ∑ l : Fin 18432, X (ix3 g a l) := by
  have hR : S64x32x18432.Reduces [2] S64x32 := by decide
  refine (Ideal.hostReduceAdd_single reducesTo_S64x32x18432_S64x32_d2 hR X _ (ix2 g a)).trans ?_
  show Ideal.ofBits .f32 0x00000000#32 + _ = _
  rw [Ideal.ofBits_zero_f32, zero_add]
  refine Finset.sum_congr rfl fun l _ => congrArg X (funext fun ax => Fin.ext ?_)
  match ax with
  | ⟨0, _⟩ => rfl
  | ⟨1, _⟩ => rfl
  | ⟨2, _⟩ => rfl

/-- Dropping the two matrix coordinates of (g, a, b) leaves g. -/
theorem drop12_ix3 (g : Fin 64) (a b : Fin 32) :
    reducesTo_S64x32x32_S64_d1_2.drop (ix3 g a b) = ix1 g := by
  funext ax
  match ax with
  | ⟨0, _⟩ => exact Fin.ext rfl

/-- The sum over both matrix axes of a [64, 32, 32] array, from zero: the indices lying over g are exactly the
    (g, a, b), so it is the double sum, rows first. -/
theorem frobSum_apply (X : FVec Ideal S64x32x32 .f32) (g : Fin 64) :
    Host.reduceAdd X (constant (F := Ideal) S_ .f32 0x00000000#32) reducesTo_S64x32x32_S64_d1_2 h_S_ (ix1 g)
      = ∑ a : Fin 32, ∑ b : Fin 32, X (ix3 g a b) := by
  refine (hostReduceAdd_apply X _ _ _ (ix1 g)).trans ?_
  unfold Ideal.hostReduceAdd
  show Ideal.ofBits .f32 0x00000000#32 + _ = _
  rw [Ideal.ofBits_zero_f32, zero_add]
  refine Eq.trans ?_ (Fintype.sum_prod_type' (fun (a b : Fin 32) => X (ix3 g a b)))
  symm
  refine Finset.sum_bij (fun p _ => ix3 g p.1 p.2) ?_ ?_ ?_ ?_
  · intro p _
    exact Finset.mem_filter.mpr ⟨Finset.mem_univ _, drop12_ix3 g p.1 p.2⟩
  · intro p _ p' _ e
    exact Prod.ext (congrFun e 1) (congrFun e 2)
  · intro i hi
    have hd := (Finset.mem_filter.mp hi).2
    have h0 : (i 0).val = g.val := congrArg Fin.val (congrFun hd 0)
    refine ⟨((i 1, i 2) : Fin 32 × Fin 32), Finset.mem_univ _, ?_⟩
    funext ax
    match ax with
    | ⟨0, _⟩ => exact Fin.ext h0.symm
    | ⟨1, _⟩ => rfl
    | ⟨2, _⟩ => rfl
  · intro p _
    rfl

/-! ## The identity matrix from two compared iotas -/

/-- Two numbers below 32 are equal exactly when their 32-bit words are; the comparison's bit, read as a number, is
    then 1 on the diagonal and 0 off it. -/
theorem eyeWord (a b : Fin 32) :
    FloatOps.uitofp (F := Ideal) .f32 (IntOp.cmpi .eq (IntOp.addi (BitVec.ofNat 32 a.val) 0#32) (BitVec.ofNat 32 b.val))
      = if a = b then (1 : EReal) else 0 := by
  have key : (BitVec.ofNat 32 a.val + 0#32 == BitVec.ofNat 32 b.val) = decide (a = b) := by
    have ha := a.isLt
    have hb := b.isLt
    by_cases h : a = b
    · subst h; simp
    · have hne : ¬ (BitVec.ofNat 32 a.val = BitVec.ofNat 32 b.val) := by
        intro e
        have e' := congrArg BitVec.toNat e
        simp only [BitVec.toNat_ofNat] at e'
        rw [Nat.mod_eq_of_lt (by omega), Nat.mod_eq_of_lt (by omega)] at e'
        exact h (Fin.ext e')
      simp [h, hne]
  show (((BitVec.ofBool (BitVec.ofNat 32 a.val + 0#32 == BitVec.ofNat 32 b.val)).toNat : ℝ) : EReal) = _
  rw [key]
  by_cases h : a = b
  · simp [h]
  · simp [h]

theorem eye_stage (a b : Fin 32) :
    (uitofp (F := Ideal) .f32 (cmpi .eq (addi (iotaInDim S32x32 32 0) (broadcastInDim S32x32 ![] bcast_S_S32x32 (constantI S_ 32 0#32))) (iotaInDim S32x32 32 1)) : FVec Ideal S32x32 .f32) (ix2 a b)
      = eye a b := eyeWord a b

/-! ## The printed stages, over variables -/

/-- Subtracting each row's mean: the printed chain of a row sum, its division by the row length and the two
    broadcasts, read at an index. -/
theorem center_stage (X : FVec Ideal S64x32x18432 .f32) (g : Fin 64) (a : Fin 32) (k : Fin 18432) :
    subf X (broadcastInDim S64x32x18432 ![0, 1, 2] bcast_S64x32x1_S64x32x18432_0_1_2 (Host.divf (broadcastInDim S64x32x1 ![0, 1] bcast_S64x32_S64x32x1_0_1 (Host.reduceAdd X (constant S_ .f32 0x00000000#32) reducesTo_S64x32x18432_S64x32_d2 h_S_)) (broadcastInDim S64x32x1 ![] bcast_S_S64x32x1 (constant S_ .f32 0x46900000#32)))) (ix3 g a k)
      = X (ix3 g a k) - Ideal.div (∑ l : Fin 18432, X (ix3 g a l)) cD := by
  show X (ix3 g a k) - _ = _
  refine congrArg (X (ix3 g a k) - ·) ?_
  refine (broadcastInDim_apply _ _ _ (ix3 g a k) (ix3 g a (0 : Fin 1)) fun ax => ?_).trans ?_
  · match ax with
    | ⟨0, _⟩ => rfl
    | ⟨1, _⟩ => rfl
    | ⟨2, _⟩ => rfl
  show Ideal.div _ _ = _
  refine congrArg₂ Ideal.div ?_ ?_
  · refine (broadcastInDim_apply _ _ _ (ix3 g a (0 : Fin 1)) (ix2 g a) fun ax => ?_).trans (rowSum_apply X g a)
    match ax with
    | ⟨0, _⟩ => rfl
    | ⟨1, _⟩ => rfl
  · exact (broadcastInDim_scalar_apply _ _ _).trans rfl

/-- The regularised Gram matrix as printed: the product, plus ε times the identity broadcast over the groups. -/
theorem reg_stage (Z : FVec Ideal S64x32x18432 .f32) (E : FVec Ideal S32x32 .f32) (g : Fin 64) (a b : Fin 32) :
    addf (Host.dotGeneral (φ₁ := .f32) (φ₂ := .f32) dot_S64x32x18432_S64x32x18432_S64x32x32_2_2_1_1_0_0 none Z Z) (broadcastInDim S64x32x32 ![0, 1, 2] bcast_S1x32x32_S64x32x32_0_1_2 (broadcastInDim S1x32x32 ![1, 2] bcast_S32x32_S1x32x32_1_2 (mulf (broadcastInDim S32x32 ![] bcast_S_S32x32 (constant S_ .f32 0x3727C5AC#32)) E))) (ix3 g a b)
      = (∑ l : Fin 18432, Z (ix3 g a l) * Z (ix3 g b l)) + cEps * E (ix2 a b) := by
  show _ + _ = _
  refine congrArg₂ (· + ·) (gram_apply Z Z g a b) ?_
  refine (broadcastInDim_apply _ _ _ (ix3 g a b) (ix3 (0 : Fin 1) a b) fun ax => ?_).trans ?_
  · match ax with
    | ⟨0, _⟩ => rfl
    | ⟨1, _⟩ => rfl
    | ⟨2, _⟩ => rfl
  refine (broadcastInDim_apply _ _ _ (ix3 (0 : Fin 1) a b) (ix2 a b) fun ax => ?_).trans ?_
  · match ax with
    | ⟨0, _⟩ => rfl
    | ⟨1, _⟩ => rfl
  show _ * _ = _
  exact congrArg (· * E (ix2 a b)) ((broadcastInDim_scalar_apply _ _ _).trans rfl)

/-- The Frobenius norm as printed: the square root of the sum of the squares, kept as a [64, 1, 1] array. -/
theorem frob_stage (S : FVec Ideal S64x32x32 .f32) (g : Fin 64) :
    Host.sqrt (broadcastInDim S64x1x1 ![0] bcast_S64_S64x1x1_0 (Host.reduceAdd (mulf S S) (constant S_ .f32 0x00000000#32) reducesTo_S64x32x32_S64_d1_2 h_S_)) (ix3 g (0 : Fin 1) (0 : Fin 1))
      = Ideal.sqrt (∑ a : Fin 32, ∑ b : Fin 32, S (ix3 g a b) * S (ix3 g a b)) := by
  show Ideal.sqrt _ = _
  refine congrArg Ideal.sqrt ?_
  refine (broadcastInDim_apply _ _ _ (ix3 g (0 : Fin 1) (0 : Fin 1)) (ix1 g) fun ax => ?_).trans (frobSum_apply (mulf S S) g)
  match ax with
  | ⟨0, _⟩ => rfl

/-- Dividing every entry of a group by the group's one number. -/
theorem scale_stage (S : FVec Ideal S64x32x32 .f32) (N : FVec Ideal S64x1x1 .f32) (g : Fin 64) (a b : Fin 32) :
    Host.divf S (broadcastInDim S64x32x32 ![0, 1, 2] bcast_S64x1x1_S64x32x32_0_1_2 N) (ix3 g a b)
      = Ideal.div (S (ix3 g a b)) (N (ix3 g (0 : Fin 1) (0 : Fin 1))) := by
  show Ideal.div _ _ = _
  refine congrArg (Ideal.div (S (ix3 g a b))) ?_
  refine broadcastInDim_apply _ _ _ (ix3 g a b) (ix3 g (0 : Fin 1) (0 : Fin 1)) fun ax => ?_
  match ax with
  | ⟨0, _⟩ => rfl
  | ⟨1, _⟩ => rfl
  | ⟨2, _⟩ => rfl

/-- One matrix copied to every group. -/
theorem eyeB_stage (E : FVec Ideal S32x32 .f32) (g : Fin 64) (a b : Fin 32) :
    broadcastInDim S64x32x32 ![1, 2] bcast_S32x32_S64x32x32_1_2 E (ix3 g a b) = E (ix2 a b) := by
  refine broadcastInDim_apply _ _ _ (ix3 g a b) (ix2 a b) fun ax => ?_
  match ax with
  | ⟨0, _⟩ => rfl
  | ⟨1, _⟩ => rfl

/-- One Newton–Schulz step as printed, group by group. -/
theorem step_stage (B Sn : FVec Ideal S64x32x32 .f32) (g : Fin 64) :
    m3 (subf (mulf (broadcastInDim S64x32x32 ![] bcast_S_S64x32x32 (constant S_ .f32 0x3FC00000#32)) B) (mulf (broadcastInDim S64x32x32 ![] bcast_S_S64x32x32 (constant S_ .f32 0x3F000000#32)) (Host.dotGeneral (φ₁ := .f32) (φ₂ := .f32) dot_S64x32x32_S64x32x32_S64x32x32_2_1_1_2_0_0 none (Host.dotGeneral (φ₁ := .f32) (φ₂ := .f32) dot_S64x32x32_S64x32x32_S64x32x32_2_1_1_2_0_0 none (Host.dotGeneral (φ₁ := .f32) (φ₂ := .f32) dot_S64x32x32_S64x32x32_S64x32x32_2_1_1_2_0_0 none B B) B) Sn))) g
      = step (m3 Sn g) (m3 B g) := by
  funext a b
  unfold step
  show _ - _ = _ - _
  refine congrArg₂ (· - ·) ?_ ?_
  · show _ * _ = _ * _
    exact congrArg (· * B (ix3 g a b)) ((broadcastInDim_scalar_apply _ _ _).trans rfl)
  · show _ * _ = _ * _
    refine congrArg₂ (· * ·) ((broadcastInDim_scalar_apply _ _ _).trans rfl) ?_
    show m3 _ g a b = _
    rw [m3_dot, m3_dot, m3_dot]

/-- The last product divided by the root of the norm, as printed. -/
theorem out_stage (B : FVec Ideal S64x32x32 .f32) (Z : FVec Ideal S64x32x18432 .f32) (N : FVec Ideal S64x1x1 .f32)
    (g : Fin 64) (a : Fin 32) (q : Fin 18432) :
    Host.divf (Host.dotGeneral (φ₁ := .f32) (φ₂ := .f32) dot_S64x32x32_S64x32x18432_S64x32x18432_2_1_1_2_0_0 none B Z) (broadcastInDim S64x32x18432 ![0, 1, 2] bcast_S64x1x1_S64x32x18432_0_1_2 (Host.sqrt N)) (ix3 g a q)
      = Ideal.div (mm (m3 B g) (z3 Z g) a q) (Ideal.sqrt (N (ix3 g (0 : Fin 1) (0 : Fin 1)))) := by
  show Ideal.div _ _ = _
  refine congrArg₂ Ideal.div (dotLast_apply B Z g a q) ?_
  refine (broadcastInDim_apply _ _ _ (ix3 g a q) (ix3 g (0 : Fin 1) (0 : Fin 1)) fun ax => ?_).trans rfl
  match ax with
  | ⟨0, _⟩ => rfl
  | ⟨1, _⟩ => rfl
  | ⟨2, _⟩ => rfl

/-! ## The named intermediate arrays, bottom up -/

section Named
variable (V0 : Valuation τ sig (Elt Ideal))

theorem v0_eq (g : Fin 64) : z3 (res_main_v0 V0) g = grp (V0 (Proc.devRef .tc main_arg0)) g := by
  funext a k
  exact split_apply (V0 (Proc.devRef .tc main_arg0)) g a k

theorem v6_eq (g : Fin 64) : z3 (res_main_v6 V0) g = center (grp (V0 (Proc.devRef .tc main_arg0)) g) := by
  funext a k
  refine (center_stage (res_main_v0 V0) g a k).trans ?_
  rw [← v0_eq V0 g]
  rfl

theorem v13_eq (a b : Fin 32) : res_main_v13 V0 (ix2 a b) = eye a b := eye_stage a b

theorem v18_eq (g : Fin 64) : m3 (res_main_v18 V0) g = reg (center (grp (V0 (Proc.devRef .tc main_arg0)) g)) := by
  funext a b
  refine (reg_stage (res_main_v6 V0) (res_main_v13 V0) g a b).trans ?_
  rw [← v6_eq V0 g, v13_eq V0 a b]
  rfl

theorem v22_eq (g : Fin 64) :
    res_main_v22 V0 (ix3 g (0 : Fin 1) (0 : Fin 1)) = frob (reg (center (grp (V0 (Proc.devRef .tc main_arg0)) g))) := by
  refine (frob_stage (res_main_v18 V0) g).trans ?_
  rw [← v18_eq V0 g]
  rfl

theorem v24_eq (g : Fin 64) : m3 (res_main_v24 V0) g = nrm (grp (V0 (Proc.devRef .tc main_arg0)) g) := by
  funext a b
  refine (scale_stage (res_main_v18 V0) (res_main_v22 V0) g a b).trans ?_
  unfold nrm
  rw [v22_eq V0 g, ← v18_eq V0 g]
  rfl

theorem v25_eq (g : Fin 64) : m3 (res_main_v25 V0) g = eye := by
  funext a b
  exact (eyeB_stage (res_main_v13 V0) g a b).trans (v13_eq V0 a b)

theorem v33_eq (g : Fin 64) : m3 (res_main_v33 V0) g = step (nrm (grp (V0 (Proc.devRef .tc main_arg0)) g)) eye := by
  refine (step_stage (res_main_v25 V0) (res_main_v24 V0) g).trans ?_
  rw [v25_eq V0 g, v24_eq V0 g]

theorem v41_eq (g : Fin 64) :
    m3 (res_main_v41 V0) g = step (nrm (grp (V0 (Proc.devRef .tc main_arg0)) g)) (step (nrm (grp (V0 (Proc.devRef .tc main_arg0)) g)) eye) := by
  refine (step_stage (res_main_v33 V0) (res_main_v24 V0) g).trans ?_
  rw [v33_eq V0 g, v24_eq V0 g]

theorem v49_eq (g : Fin 64) :
    m3 (res_main_v49 V0) g
      = step (nrm (grp (V0 (Proc.devRef .tc main_arg0)) g)) (step (nrm (grp (V0 (Proc.devRef .tc main_arg0)) g)) (step (nrm (grp (V0 (Proc.devRef .tc main_arg0)) g)) eye)) := by
  refine (step_stage (res_main_v41 V0) (res_main_v24 V0) g).trans ?_
  rw [v41_eq V0 g, v24_eq V0 g]

theorem v57_eq (g : Fin 64) :
    m3 (res_main_v57 V0) g
      = step (nrm (grp (V0 (Proc.devRef .tc main_arg0)) g)) (step (nrm (grp (V0 (Proc.devRef .tc main_arg0)) g)) (step (nrm (grp (V0 (Proc.devRef .tc main_arg0)) g)) (step (nrm (grp (V0 (Proc.devRef .tc main_arg0)) g)) eye))) := by
  refine (step_stage (res_main_v49 V0) (res_main_v24 V0) g).trans ?_
  rw [v49_eq V0 g, v24_eq V0 g]

end Named

/-! ## The result -/

theorem result_eq (V0 : Valuation τ sig (Elt Ideal)) :
    (shapeCast _ (Host.divf (Host.dotGeneral (φ₁ := .f32) (φ₂ := .f32) dot_S64x32x32_S64x32x18432_S64x32x18432_2_1_1_2_0_0 none (subf (mulf (broadcastInDim S64x32x32 ![] bcast_S_S64x32x32 (constant S_ .f32 0x3FC00000#32)) (res_main_v57 V0)) (mulf (broadcastInDim S64x32x32 ![] bcast_S_S64x32x32 (constant S_ .f32 0x3F000000#32)) (Host.dotGeneral (φ₁ := .f32) (φ₂ := .f32) dot_S64x32x32_S64x32x32_S64x32x32_2_1_1_2_0_0 none (Host.dotGeneral (φ₁ := .f32) (φ₂ := .f32) dot_S64x32x32_S64x32x32_S64x32x32_2_1_1_2_0_0 none (Host.dotGeneral (φ₁ := .f32) (φ₂ := .f32) dot_S64x32x32_S64x32x32_S64x32x32_2_1_1_2_0_0 none (res_main_v57 V0) (res_main_v57 V0)) (res_main_v57 V0)) (res_main_v24 V0)))) (res_main_v6 V0)) (broadcastInDim S64x32x18432 ![0, 1, 2] bcast_S64x1x1_S64x32x18432_0_1_2 (Host.sqrt (res_main_v22 V0)))) shapeCasts_S64x32x18432_S2048x18432 : S2048x18432.Idx → EReal) = Cert.Ortho.resultOf Cert.Ortho.outDiv (V0 (Proc.devRef .tc main_arg0)) := by
  funext i
  obtain ⟨r, q, rfl⟩ : ∃ (r : Fin 2048) (q : Fin 18432), i = ix2 r q := ⟨i 0, i 1, eq_ix2 i⟩
  refine (merge_apply _ r q).trans ?_
  refine (out_stage _ (res_main_v6 V0) (res_main_v22 V0) _ _ q).trans ?_
  rw [step_stage (res_main_v57 V0) (res_main_v24 V0), v57_eq V0, v24_eq V0, v6_eq V0, v22_eq V0]
  rfl

end Cert.ReferenceIdeal.RefValue

end
-- ==== Proof.lean ====
/-
  The certificate of a grouped Newton–Schulz orthogonalisation of a [2048, 18432] weight matrix, kernel against
  reference, over the extended reals.

  Both programs cut the matrix into 64 groups of 32 consecutive rows and treat each group W alone: centre its rows,
  form S = Z Zᵀ + ε·I, divide S by its Frobenius norm n, run five Newton–Schulz steps B ← 1.5·B − 0.5·B³S from the
  identity, and return B Z scaled by n^(-1/2) (Proof/Spec.lean states this once, over matrices by coordinates).
  The kernel handles two groups per grid point and multiplies by the reciprocal 1 / sqrt n; the reference handles all
  groups at once as batched operations and divides by sqrt n. The two scalings agree because sqrt n is never zero:
  n² ≥ S₀₀² and S₀₀ ≥ ε > 0 (Spec.lean, rootNorm_pos). Everything else is the same composition of exact operations
  (a change of float format is the identity on the extended reals; a product into a zero accumulator and a host
  product are the same sum; sums may be regrouped).

  The kernel's frames are the generated ones; its value is read off the generated blockwise run
  (Proof/KOps.lean: the operations at an index; Proof/KPay.lean: the stored value of a group; Proof/KArray.lean: from
  the blocks to the array). The reference's frame and value are its generated run, read stage by stage in
  Proof/RefValue.lean. No rewrite was applied when the kernel was idealized, so nothing is owed for that claim.
-/
import proofs.«152169_j37984690765992_2_alg».proof.Defs
import proofs.«152169_j37984690765992_2_alg».proof.Proof.Gen.Kernel
import proofs.«152169_j37984690765992_2_alg».proof.Proof.Gen.Kernel.Frame
import proofs.«152169_j37984690765992_2_alg».proof.Proof.Gen.KernelIdeal
import proofs.«152169_j37984690765992_2_alg».proof.Proof.Gen.KernelIdeal.Frame
import proofs.«152169_j37984690765992_2_alg».proof.Proof.Gen.KernelIdeal.Value
import proofs.«152169_j37984690765992_2_alg».proof.Proof.Gen.ReferenceIdeal
import proofs.«152169_j37984690765992_2_alg».proof.Proof.Gen.ReferenceIdeal.Run
import proofs.«152169_j37984690765992_2_alg».proof.Proof.Gen.Pre_finite_inputs
import proofs.«152169_j37984690765992_2_alg».proof.Proof.Spec
import proofs.«152169_j37984690765992_2_alg».proof.Proof.KArray
import proofs.«152169_j37984690765992_2_alg».proof.Proof.RefValue

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the array-level function of the argument: the kernel's in the multiplying
    form, the reference's in the dividing form, and the two forms are one function. -/
theorem algebraic : Cert.algebraic_KernelIdeal_ReferenceIdeal := by
  intro m ρ m' ρ' _ hagree
  refine ⟨fun c => Cert.Ortho.resultOf Cert.Ortho.outMul (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq]
  show _ = Cert.Ortho.resultOf Cert.Ortho.outMul (m ((c.tc : Thread Cert.KernelIdeal.nD Cert.KernelIdeal.τ).loc Cert.KernelIdeal.main_arg0))
  rw [Cert.Ortho.resultOf_outMul_eq]
  exact congrArg (Cert.Ortho.resultOf Cert.Ortho.outDiv) (hagree c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
